-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x1048576x2 : Shape := ⟨4, ![32, 2, 1048576, 2]⟩
abbrev S32x2 : Shape := ⟨2, ![32, 2]⟩
abbrev S32 : Shape := ⟨1, ![32]⟩
abbrev S2x1048576 : Shape := ⟨2, ![2, 1048576]⟩
abbrev S_ : Shape := ⟨0, ![]⟩

class Facts : Prop where
  bcast_S_S32x2x1048576x2 : S_.BroadcastsInDim S32x2x1048576x2 (![] : Fin 0 → Fin S32x2x1048576x2.rank)
  reducesTo_S32x2x1048576x2_S_d0_1_2_3 : S32x2x1048576x2.ReducesTo [0, 1, 2, 3] S_
  h_S_ : 0 < S_.numel
  bcast_S_S32x2 : S_.BroadcastsInDim S32x2 (![] : Fin 0 → Fin S32x2.rank)
  reducesTo_S32x2_S_d0_1 : S32x2.ReducesTo [0, 1] S_
  bcast_S_S32 : S_.BroadcastsInDim S32 (![] : Fin 0 → Fin S32.rank)
  reducesTo_S32_S_d0 : S32.ReducesTo [0] S_
  bcast_S_S2x1048576 : S_.BroadcastsInDim S2x1048576 (![] : Fin 0 → Fin S2x1048576.rank)
  reducesTo_S2x1048576_S_d0_1 : S2x1048576.ReducesTo [0, 1] S_

variable [Facts]

def fn_part1 {F : FTy → Type} [FloatOps F] (main_v13 : IVec S_ 1) (main_v16 : IVec S2x1048576 1) : IVec S_ 1 :=
  let main_c_5 : IVec S_ 1 := constantI S_ 1 1#1
  let main_v17 : IVec S_ 1 := (fun x v => Host.reduce IntOp.andi x v reducesTo_S2x1048576_S_d0_1 h_S_) main_v16 main_c_5
  let main_v18 : IVec S_ 1 := andi main_v13 main_v17
  main_v18

def fn {F : FTy → Type} [FloatOps F] (main_arg0 : FVec F S32x2x1048576x2 .f32) (main_arg1 : FVec F S32x2 .f32) (main_arg2 : FVec F S32 .f32) (main_arg3 : FVec F S2x1048576 .f32) : IVec S_ 1 :=
  let main_v0 : FVec F S32x2x1048576x2 .f32 := Host.absf main_arg0
  let main_cst : FVec F S_ .f32 := constant S_ .f32 0x7F800000#32
  let main_v1 : FVec F S32x2x1048576x2 .f32 := broadcastInDim S32x2x1048576x2 ![] bcast_S_S32x2x1048576x2 main_cst
  let main_v2 : IVec S32x2x1048576x2 1 := cmpf .olt main_v0 main_v1
  let main_c : IVec S_ 1 := constantI S_ 1 1#1
  let main_v3 : IVec S_ 1 := (fun x v => Host.reduce IntOp.andi x v reducesTo_S32x2x1048576x2_S_d0_1_2_3 h_S_) main_v2 main_c
  let main_v4 : FVec F S32x2 .f32 := Host.absf main_arg1
  let main_cst_0 : FVec F S_ .f32 := constant S_ .f32 0x7F800000#32
  let main_v5 : FVec F S32x2 .f32 := broadcastInDim S32x2 ![] bcast_S_S32x2 main_cst_0
  let main_v6 : IVec S32x2 1 := cmpf .olt main_v4 main_v5
  let main_c_1 : IVec S_ 1 := constantI S_ 1 1#1
  let main_v7 : IVec S_ 1 := (fun x v => Host.reduce IntOp.andi x v reducesTo_S32x2_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S2x1048576 .f32 := Host.absf main_arg3
  let main_cst_4 : FVec F S_ .f32 := constant S_ .f32 0x7F800000#32
  let main_v15 : FVec F S2x1048576 .f32 := broadcastInDim S2x1048576 ![] bcast_S_S2x1048576 main_cst_4
  let main_v16 : IVec S2x1048576 1 := cmpf .olt main_v14 main_v15
  fn_part1 (F := F) main_v13 main_v16
-- ==== Kernel.lean ====
abbrev S32x2x1048576x2 : Shape := ⟨4, ![32, 2, 1048576, 2]⟩
abbrev S32x2 : Shape := ⟨2, ![32, 2]⟩
abbrev S32 : Shape := ⟨1, ![32]⟩
abbrev S2x1048576 : Shape := ⟨2, ![2, 1048576]⟩
abbrev S16x2x16384x2 : Shape := ⟨4, ![16, 2, 16384, 2]⟩
abbrev S16x2 : Shape := ⟨2, ![16, 2]⟩
abbrev S2x16384 : Shape := ⟨2, ![2, 16384]⟩
abbrev S16x1 : Shape := ⟨2, ![16, 1]⟩
abbrev S1x16384 : Shape := ⟨2, ![1, 16384]⟩
abbrev S16x16384 : Shape := ⟨2, ![16, 16384]⟩
abbrev S16x2x16384x1 : Shape := ⟨4, ![16, 2, 16384, 1]⟩
abbrev S16x2x16384 : Shape := ⟨3, ![16, 2, 16384]⟩
abbrev S16x1x16384 : Shape := ⟨3, ![16, 1, 16384]⟩

abbrev nBuf : Space → Nat
  | .hbm => 5
  | .vmem => 9
  | .smem => 0
  | _ => 0

abbrev bufTy : (tb : Table) → Fin (tcTables nBuf tb) → BufTy
  | .hbm, ⟨0, _⟩ => ⟨S32x2x1048576x2, .f32⟩
  | .hbm, ⟨1, _⟩ => ⟨S32x2, .f32⟩
  | .hbm, ⟨2, _⟩ => ⟨S32, .f32⟩
  | .hbm, ⟨3, _⟩ => ⟨S2x1048576, .f32⟩
  | .hbm, ⟨4, _⟩ => ⟨S32x2, .f32⟩
  | .local _ .vmem, ⟨0, _⟩ => ⟨S16x2x16384x2, .f32⟩
  | .local _ .vmem, ⟨1, _⟩ => ⟨S16x2x16384x2, .f32⟩
  | .local _ .vmem, ⟨2, _⟩ => ⟨S16x2, .f32⟩
  | .local _ .vmem, ⟨3, _⟩ => ⟨S16x2, .f32⟩
  | .local _ .vmem, ⟨4, _⟩ => ⟨S2x16384, .f32⟩
  | .local _ .vmem, ⟨5, _⟩ => ⟨S2x16384, .f32⟩
  | .local _ .vmem, ⟨6, _⟩ => ⟨S16x2, .f32⟩
  | .local _ .vmem, ⟨7, _⟩ => ⟨S16x2, .f32⟩
  | .local _ .vmem, ⟨8, _⟩ => ⟨S16x2, .f32⟩
  | _, _ => ⟨S32x2x1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v38 : BitVec 1 := Scalar.cmpi .eq arg1 c63_i32
  let v39 : BitVec 32 := Scalar.extui v38
  let c0_i32_13 : BitVec 32 := 0#32
  let v40 : BitVec 1 := Scalar.cmpi .ne v39 c0_i32_13
  v40

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x2x16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S16x2_S16x2_0_0 : ∀ a, (![0, 0] : Fin 2 → Nat) a + S16x2.size a ≤ S16x2.size a
  h_S16x2 : 0 < S16x2.numel
  shapeCasts_S16x2_S16x2 : S16x2.ShapeCasts S16x2
  inb_S2x16384_S2x16384_0_0 : ∀ a, (![0, 0] : Fin 2 → Nat) a + S2x16384.size a ≤ S2x16384.size a
  h_S2x16384 : 0 < S2x16384.numel
  slices_S16x2_o0_0_S16x1 : S16x2.Slices ![0, 0] S16x1
  slices_S16x2_o0_1_S16x1 : S16x2.Slices ![0, 1] S16x1
  slices_S2x16384_o0_0_S1x16384 : S2x16384.Slices ![0, 0] S1x16384
  slices_S2x16384_o1_0_S1x16384 : S2x16384.Slices ![1, 0] S1x16384
  broadcasts_S16x1_S16x16384 : S16x1.Broadcasts S16x16384
  broadcasts_S1x16384_S16x16384 : S1x16384.Broadcasts S16x16384
  inb_S16x2x16384x2_S16x2x16384x2_0_0_0_0 : ∀ a, (![0, 0, 0, 0] : Fin 4 → Nat) a + S16x2x16384x2.size a ≤ S16x2x16384x2.size a
  h_S16x2x16384x2 : 0 < S16x2x16384x2.numel
  slices_S16x2x16384x2_o0_0_0_0_S16x2x16384x1 : S16x2x16384x2.Slices ![0, 0, 0, 0] S16x2x16384x1
  shapeCasts_S16x2x16384x1_S16x2x16384 : S16x2x16384x1.ShapeCasts S16x2x16384
  slices_S16x2x16384x2_o0_0_0_1_S16x2x16384x1 : S16x2x16384x2.Slices ![0, 0, 0, 1] S16x2x16384x1
  shapeCasts_S16x16384_S16x1x16384 : S16x16384.ShapeCasts S16x1x16384
  broadcasts_S16x1x16384_S16x2x16384 : S16x1x16384.Broadcasts S16x2x16384
  reduces_S16x2x16384_S16x2 : S16x2x16384.Reduces [2] S16x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2x16384x2.size a ≤ S32x2x1048576x2.size a
  hwx0_0 : ∀ i : grid0.Coords, EltTy.bits .f32 = 32 ∨ (Rect.block (s := S32x2x1048576x2) S16x2x16384x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2.size a ≤ S32x2.size a
  hwx0_1 : ∀ i : grid0.Coords, EltTy.bits .f32 = 32 ∨ (Rect.block (s := S32x2) S16x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16384.size a ≤ S2x1048576.size a
  hwx0_2 : ∀ i : grid0.Coords, EltTy.bits .f32 = 32 ∨ (Rect.block (s := S2x1048576) S2x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2.size a ≤ S32x2.size a
  hwx0_3 : ∀ i : grid0.Coords, EltTy.bits .f32 = 32 ∨ (Rect.block (s := S32x2) S16x2.size (cc0_transform_3 i) (hinb0_3 i)).WholeWords (EltTy.packing .f32)

variable [Facts₀]

abbrev win0_0 : Pipeline.Window sig grid0 :=
  Pipeline.Window.ofSpec (Memref.whole main_arg0) S16x2x16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x2x1048576x2 : Shape := ⟨4, ![32, 2, 1048576, 2]⟩
abbrev S32x2 : Shape := ⟨2, ![32, 2]⟩
abbrev S32 : Shape := ⟨1, ![32]⟩
abbrev S2x1048576 : Shape := ⟨2, ![2, 1048576]⟩
abbrev S32x1048576 : Shape := ⟨2, ![32, 1048576]⟩
abbrev S_ : Shape := ⟨0, ![]⟩
abbrev S32x2x1048576x1 : Shape := ⟨4, ![32, 2, 1048576, 1]⟩
abbrev S32x2x1048576 : Shape := ⟨3, ![32, 2, 1048576]⟩
abbrev S32x1x1048576 : Shape := ⟨3, ![32, 1, 1048576]⟩

abbrev nBuf : Space → Nat
  | .hbm => 26
  | .vmem => 0
  | .smem => 0
  | _ => 0

abbrev bufTy : (tb : Table) → Fin (tcTables nBuf tb) → BufTy
  | .hbm, ⟨0, _⟩ => ⟨S32x2x1048576x2, .f32⟩
  | .hbm, ⟨1, _⟩ => ⟨S32x2, .f32⟩
  | .hbm, ⟨2, _⟩ => ⟨S32, .f32⟩
  | .hbm, ⟨3, _⟩ => ⟨S2x1048576, .f32⟩
  | .hbm, ⟨4, _⟩ => ⟨S32x1048576, .f32⟩
  | .hbm, ⟨5, _⟩ => ⟨S_, .f32⟩
  | .hbm, ⟨6, _⟩ => ⟨S32x1048576, .f32⟩
  | .hbm, ⟨7, _⟩ => ⟨S32x1048576, .f32⟩
  | .hbm, ⟨8, _⟩ => ⟨S32x1048576, .f32⟩
  | .hbm, ⟨9, _⟩ => ⟨S32x1048576, .f32⟩
  | .hbm, ⟨10, _⟩ => ⟨S32x2x1048576x1, .f32⟩
  | .hbm, ⟨11, _⟩ => ⟨S32x2x1048576, .f32⟩
  | .hbm, ⟨12, _⟩ => ⟨S32x2x1048576x1, .f32⟩
  | .hbm, ⟨13, _⟩ => ⟨S32x2x1048576, .f32⟩
  | .hbm, ⟨14, _⟩ => ⟨S32x1x1048576, .f32⟩
  | .hbm, ⟨15, _⟩ => ⟨S32x2x1048576, .f32⟩
  | .hbm, ⟨16, _⟩ => ⟨S32x2x1048576, .f32⟩
  | .hbm, ⟨17, _⟩ => ⟨S32x1x1048576, .f32⟩
  | .hbm, ⟨18, _⟩ => ⟨S32x2x1048576, .f32⟩
  | .hbm, ⟨19, _⟩ => ⟨S32x2x1048576, .f32⟩
  | .hbm, ⟨20, _⟩ => ⟨S32x2x1048576, .f32⟩
  | .hbm, ⟨21, _⟩ => ⟨S_, .f32⟩
  | .hbm, ⟨22, _⟩ => ⟨S32x2, .f32⟩
  | .hbm, ⟨23, _⟩ => ⟨S_, .f32⟩
  | .hbm, ⟨24, _⟩ => ⟨S32x2, .f32⟩
  | .hbm, ⟨25, _⟩ => ⟨S32x2, .f32⟩
  | _, _ => ⟨S32x2x1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S32x1048576 : S_.BroadcastsInDim S32x1048576 (![] : Fin 0 → Fin S32x1048576.rank)
  slices_S32x2x1048576x2_S32x2x1048576x1_0_0_0_0 : S32x2x1048576x2.Slices ![0, 0, 0, 0] S32x2x1048576x1
  shapeCasts_S32x2x1048576x1_S32x2x1048576 : S32x2x1048576x1.ShapeCasts S32x2x1048576
  slices_S32x2x1048576x2_S32x2x1048576x1_0_0_0_1 : S32x2x1048576x2.Slices ![0, 0, 0, 1] S32x2x1048576x1
  bcast_S32x1048576_S32x1x1048576_0_2 : S32x1048576.BroadcastsInDim S32x1x1048576 (![0, 2] : Fin 2 → Fin S32x1x1048576.rank)
  bcast_S32x1x1048576_S32x2x1048576_0_1_2 : S32x1x1048576.BroadcastsInDim S32x2x1048576 (![0, 1, 2] : Fin 3 → Fin S32x2x1048576.rank)
  reducesTo_S32x2x1048576_S32x2_d2 : S32x2x1048576.ReducesTo [2] S32x2
  h_S_ : 0 < S_.numel
  bcast_S_S32x2 : S_.BroadcastsInDim S32x2 (![] : Fin 0 → Fin S32x2.rank)
  dot_S32x2_S2x1048576_S32x1048576_1_0_0_1_n_n_wf : DotDims.WF S32x2 S2x1048576 S32x1048576 [1] [0] [0] [1] [] []

variable [Facts₀]

def dot_S32x2_S2x1048576_S32x1048576_1_0_0_1_n_n : DotDims S32x2 S2x1048576 S32x1048576 where
  lhsContracting := [1]
  rhsContracting := [0]
  lhsNonContracting := [0]
  rhsNonContracting := [1]
  lhsBatch := []
  rhsBatch := []
  wf := dot_S32x2_S2x1048576_S32x1048576_1_0_0_1_n_n_wf

class Facts : Prop extends Facts₀ where

variable [Facts]
-- ==== Proof.Spec.lean ====
/-
  The function both programs compute, over the extended reals, and the one law that joins their two arrangements.

  For a batch row `b`, a channel `c` and a frequency `j` the summand is the real part of `f · exp(i·phase)`:
      term b c j = f[b, c, j, 0] · cos (phase b j) − f[b, c, j, 1] · sin (phase b j),
      phase b j  = σ · (x[b, 0] · k[0, j] + x[b, 1] · k[1, j]),
  with `σ` the one float word both programs spell for 2π/1024. The result at (b, c) is the sum of the summand over
  every frequency, scaled by 2^-20 (the mean over 2^20 frequencies).

  The definitions are stated for any number of rows `B` and of frequencies `J`, so that the same text reads a whole
  array (B = 32, J = 2^20) and one block of it (B = 16, J = 2^14). The law: a sum over J·n frequencies is the sum over
  the n consecutive tiles of J frequencies of each tile's sum. Addition of extended reals is commutative and
  associative at the infinities too, so the law needs no finiteness.
-/
import Idealize.ShloMosaic.PureOps.Ideal
import Idealize.ShloMosaic.Lib.ValueIdx

noncomputable section

namespace FreqProj

open Idealize.ShloMosaic Idealize.ShloMosaic.ValueIdx

/-- The angular scale 2π/1024 as the float word both programs spell. -/
abbrev sigma : EReal := Ideal.ofBits .f32 0x3BC90FDB#32

/-- The phase of row `b` at frequency `j`: the scaled inner product of the row's two coordinates with the
    frequency's two coordinates. -/
def phase {B J : ℕ} (x : (⟨2, ![B, 2]⟩ : Shape).Idx → EReal) (k : (⟨2, ![2, J]⟩ : Shape).Idx → EReal)
    (b : Fin B) (j : Fin J) : EReal :=
  sigma * (x (ix2 b 0) * k (ix2 0 j) + x (ix2 b 1) * k (ix2 1 j))

/-- The summand: the real part of the complex product of `f[b, c, j, ·]` with the unit complex number of that phase. -/
def term {B J : ℕ} (f : (⟨4, ![B, 2, J, 2]⟩ : Shape).Idx → EReal) (x : (⟨2, ![B, 2]⟩ : Shape).Idx → EReal)
    (k : (⟨2, ![2, J]⟩ : Shape).Idx → EReal) (b : Fin B) (c : Fin 2) (j : Fin J) : EReal :=
  f (ix4 b c j 0) * Ideal.cos (phase x k b j) - f (ix4 b c j 1) * Ideal.sin (phase x k b j)

/-- The sum of the summand over every frequency of the array (or of the block) it is read from. -/
def freqSum {B J : ℕ} (f : (⟨4, ![B, 2, J, 2]⟩ : Shape).Idx → EReal) (x : (⟨2, ![B, 2]⟩ : Shape).Idx → EReal)
    (k : (⟨2, ![2, J]⟩ : Shape).Idx → EReal) (b : Fin B) (c : Fin 2) : EReal :=
  ∑ j : Fin J, term f x k b c j

/-- THE RESULT: at (b, c) the mean over the 2^20 frequencies of the summand, the mean taken as the product with 2^-20. -/
def result (f : (⟨4, ![32, 2, 1048576, 2]⟩ : Shape).Idx → EReal) (x : (⟨2, ![32, 2]⟩ : Shape).Idx → EReal)
    (k : (⟨2, ![2, 1048576]⟩ : Shape).Idx → EReal) : (⟨2, ![32, 2]⟩ : Shape).Idx → EReal :=
  fun i => freqSum f x k (i 0) (i 1) * Ideal.ofBits .f32 0x35800000#32

/-! ## Blocks of the arrays

The kernel's grid has 128 points; point `n` works on the batch group `n / 64` (16 rows) and on the frequency tile
`n % 64` (2^14 frequencies). -/

/-- Row `r` of point `n`'s block of rows, as a row of the array. -/
def rowOf (n : ℕ) (hn : n < 128) (r : Fin 16) : Fin 32 := ⟨16 * (n / 64) + r.val, by have := r.isLt; omega⟩

/-- Frequency `j` of point `n`'s tile, as a frequency of the array. -/
def freqOf (n : ℕ) (hn : n < 128) (j : Fin 16384) : Fin 1048576 := ⟨16384 * (n % 64) + j.val, by have := j.isLt; omega⟩

/-- The summand depends on the arrays only through the six entries it reads: two of `f`, two of `x`, two of `k`. -/
theorem term_congr {B J B' J' : ℕ} (f : (⟨4, ![B, 2, J, 2]⟩ : Shape).Idx → EReal) (x : (⟨2, ![B, 2]⟩ : Shape).Idx → EReal)
    (k : (⟨2, ![2, J]⟩ : Shape).Idx → EReal) (f' : (⟨4, ![B', 2, J', 2]⟩ : Shape).Idx → EReal)
    (x' : (⟨2, ![B', 2]⟩ : Shape).Idx → EReal) (k' : (⟨2, ![2, J']⟩ : Shape).Idx → EReal)
    (b : Fin B) (b' : Fin B') (c : Fin 2) (j : Fin J) (j' : Fin J')
    (hf : ∀ e : Fin 2, f (ix4 b c j e) = f' (ix4 b' c j' e)) (hx : ∀ q : Fin 2, x (ix2 b q) = x' (ix2 b' q))
    (hk : ∀ q : Fin 2, k (ix2 q j) = k' (ix2 q j')) :
    term f x k b c j = term f' x' k' b' c j' := by
  unfold term phase
  rw [hf 0, hf 1, hx 0, hx 1, hk 0, hk 1]

/-! ## Tiles of a sum -/

/-- Over the naturals: the sums of `n` consecutive tiles of length `R` add up to the sum of the first `R · n` terms. -/
theorem sum_range_tiles {M : Type*} [AddCommMonoid M] (g : ℕ → M) (R : ℕ) :
    ∀ n : ℕ, ∑ s ∈ Finset.range n, ∑ r ∈ Finset.range R, g (R * s + r) = ∑ j ∈ Finset.range (R * n), g j
  | 0 => by simp
  | n + 1 => by
    rw [Finset.sum_range_succ, sum_range_tiles g R n, Nat.mul_succ, Finset.sum_range_add]

/-- The same for a function of the frequencies of an array: tile `s` holds the frequencies `R·s … R·s + R − 1`. -/
theorem sum_tiles {M : Type*} [AddCommMonoid M] (R n : ℕ) (g : Fin (R * n) → M) :
    ∑ s ∈ Finset.range n, ∑ r : Fin R, (if h : R * s + r.val < R * n then g ⟨R * s + r.val, h⟩ else 0) = ∑ j : Fin (R * n), g j := by
  have e := sum_range_tiles (fun j => if h : j < R * n then g ⟨j, h⟩ else 0) R n
  rw [Finset.sum_range (fun j => if h : j < R * n then g ⟨j, h⟩ else 0)] at e
  have e2 : (∑ i : Fin (R * n), if h : i.val < R * n then g ⟨i.val, h⟩ else 0) = ∑ j : Fin (R * n), g j :=
    Finset.sum_congr rfl fun j _ => by rw [dif_pos j.isLt]
  rw [← e2, ← e]
  exact Finset.sum_congr rfl fun s _ =>
    (Finset.sum_range (fun r => if h : R * s + r < R * n then g ⟨R * s + r, h⟩ else 0)).symm

/-- The 2^20 frequencies are 64 tiles of 2^14. -/
theorem sum_freq_tiles {M : Type*} [AddCommMonoid M] (g : Fin 1048576 → M) :
    ∑ s ∈ Finset.range 64, ∑ r : Fin 16384, (if h : 16384 * s + r.val < 1048576 then g ⟨16384 * s + r.val, h⟩ else 0)
      = ∑ j : Fin 1048576, g j :=
  sum_tiles 16384 64 g

end FreqProj

end
-- ==== Proof.Consts.lean ====
/-
  The float constants the two programs spell, as the extended reals their patterns denote: the zero the
  accumulator starts from and both sums start from, the reference's divisor 2^20 = 1048576 (the number of
  frequencies averaged over) and the kernel's folded reciprocal 2^-20 — a power of two, so the folded word is the
  reciprocal exactly and no rounding separates the kernel's product from the reference's quotient.
-/
import Idealize.ShloMosaic.PureOps.Ideal

noncomputable section

namespace FreqProj.Consts

open Idealize.ShloMosaic

/-- `+0.0` denotes `0`. -/
theorem ofBits_zero : Ideal.ofBits .f32 0x00000000#32 = 0 := by
  simp [Ideal.ofBits, Ideal.ieee]

/-- `1048576.0`, the reference's divisor, denotes the real `2^20`. -/
theorem ofBits_count : Ideal.ofBits .f32 0x49800000#32 = ((1048576 : ℝ) : EReal) := by
  simp [Ideal.ofBits, Ideal.ieee, -EReal.coe_mul]; norm_num

/-- `9.5367431640625e-07`, the kernel's scale, denotes the real `1 / 2^20`. -/
theorem ofBits_inv_count : Ideal.ofBits .f32 0x35800000#32 = ((1 / 1048576 : ℝ) : EReal) := by
  simp [Ideal.ofBits, Ideal.ieee, -EReal.coe_mul]; norm_num

/-- Dividing by the count is multiplying by the kernel's scale, on every extended real. -/
theorem div_count (x : EReal) :
    Ideal.div x (Ideal.ofBits .f32 0x49800000#32) = x * Ideal.ofBits .f32 0x35800000#32 := by
  rw [ofBits_count, ofBits_inv_count, Ideal.div_coe (by norm_num : (1048576 : ℝ) ≠ 0)]

end FreqProj.Consts

end
-- ==== Proof.Reference.lean ====
/-
  The reference computes `FreqProj.result`.

  Its program is a matrix product `x @ k` contracted over the two coordinates, scaled by σ, then cosine and sine
  of that phase broadcast over the channel axis, the two slices `f[..., 0]` and `f[..., 1]` of the interleaved
  (real, imaginary) pairs, the difference of the two products, a sum over the frequency axis from zero, and a
  quotient by 2^20. Read at an entry (b, c): the contraction over two coordinates is
  `x[b,0]·k[0,j] + x[b,1]·k[1,j]`, the sum from zero is the sum, and the quotient by 2^20 is the product with
  2^-20 on every extended real.
-/
import proofs.«176217_j80049600463644_1_alg».proof.Proof.Spec
import proofs.«176217_j80049600463644_1_alg».proof.Proof.Consts
import proofs.«176217_j80049600463644_1_alg».proof.Proof.Gen.ReferenceIdeal.Read

noncomputable section

namespace FreqProj.Reference

open Idealize.ShloMosaic Idealize.ShloMosaic.ValueIdx Cert.ReferenceIdeal Cert.ReferenceIdeal.Read

/-- The real part's entry: through the frequency-axis reduction's index, the reshape that drops the unit axis and the
    slice at offset 0 of the last axis, entry (b, c, j) reads `f[b, c, j, 0]`. -/
theorem idx_re (b : Fin 32) (c : Fin 2) (j : Fin 1048576) :
    idx_main_v5 (idx_main_v6 (idx_main_v16 (ix2 b c) j)) = ix4 b c j 0 := by
  have hb := b.isLt; have hc := c.isLt; have hj := j.isLt
  funext a; apply Fin.ext
  match a with
  | ⟨0, _⟩ => show ((b.val * 2 + c.val) * 1048576 + j.val) / 2097152 = b.val; omega
  | ⟨1, _⟩ => show ((b.val * 2 + c.val) * 1048576 + j.val) / 1048576 % 2 = c.val; omega
  | ⟨2, _⟩ => show ((b.val * 2 + c.val) * 1048576 + j.val) / 1 % 1048576 = j.val; omega
  | ⟨3, _⟩ => rfl

/-- The imaginary part's entry: the same through the slice at offset 1. -/
theorem idx_im (b : Fin 32) (c : Fin 2) (j : Fin 1048576) :
    idx_main_v7 (idx_main_v8 (idx_main_v16 (ix2 b c) j)) = ix4 b c j 1 := by
  have hb := b.isLt; have hc := c.isLt; have hj := j.isLt
  funext a; apply Fin.ext
  match a with
  | ⟨0, _⟩ => show ((b.val * 2 + c.val) * 1048576 + j.val) / 2097152 = b.val; omega
  | ⟨1, _⟩ => show ((b.val * 2 + c.val) * 1048576 + j.val) / 1048576 % 2 = c.val; omega
  | ⟨2, _⟩ => show ((b.val * 2 + c.val) * 1048576 + j.val) / 1 % 1048576 = j.val; omega
  | ⟨3, _⟩ => rfl

/-- The cosine's entry: the two broadcasts over the channel axis read the phase matrix at (b, j). -/
theorem idx_cos (b : Fin 32) (c : Fin 2) (j : Fin 1048576) :
    idx_main_v9 (idx_main_v10 (idx_main_v16 (ix2 b c) j)) = ix2 b j := by
  funext a; apply Fin.ext
  match a with
  | ⟨0, _⟩ => rfl
  | ⟨1, _⟩ => rfl

/-- The sine's entry likewise. -/
theorem idx_sin (b : Fin 32) (c : Fin 2) (j : Fin 1048576) :
    idx_main_v12 (idx_main_v13 (idx_main_v16 (ix2 b c) j)) = ix2 b j := by
  funext a; apply Fin.ext
  match a with
  | ⟨0, _⟩ => rfl
  | ⟨1, _⟩ => rfl

/-- The contraction's left entry at coordinate `q` is `x[b, q]`; -/
theorem idx_lhs (b : Fin 32) (j : Fin 1048576) (q : Fin 2) : lidx_main_v0 (ix2 b j) q = ix2 b q := by
  funext a; apply Fin.ext
  match a with
  | ⟨0, _⟩ => rfl
  | ⟨1, _⟩ => rfl

/-- its right entry is `k[q, j]`. -/
theorem idx_rhs (b : Fin 32) (j : Fin 1048576) (q : Fin 2) : ridx_main_v0 (ix2 b j) q = ix2 q j := by
  funext a; apply Fin.ext
  match a with
  | ⟨0, _⟩ => rfl
  | ⟨1, _⟩ => rfl

/-- The phase matrix `σ · (x @ k)` at (b, j) is the specification's phase. -/
theorem phase_eq (x1 : (⟨S32x2, .f32⟩ : BufTy).Contents (Elt Ideal)) (x3 : (⟨S2x1048576, .f32⟩ : BufTy).Contents (Elt Ideal))
    (b : Fin 32) (j : Fin 1048576) :
    val_main_v2 (F := Ideal) x1 x3 (ix2 b j) = phase x1 x3 b j := by
  rw [val_main_v2_apply, val_main_v1_apply, val_main_cst_apply, val_main_v0_apply, Fin.sum_univ_two]
  simp only [idx_lhs, idx_rhs, Ideal.mulf_def, Ideal.ofBits_def]
  rfl

/-- The summand before the reduction, at (b, c, j), is the specification's summand. -/
theorem term_eq (x0 : (⟨S32x2x1048576x2, .f32⟩ : BufTy).Contents (Elt Ideal)) (x1 : (⟨S32x2, .f32⟩ : BufTy).Contents (Elt Ideal))
    (x3 : (⟨S2x1048576, .f32⟩ : BufTy).Contents (Elt Ideal)) (b : Fin 32) (c : Fin 2) (j : Fin 1048576) :
    val_main_v15 (F := Ideal) x0 x1 x3 (idx_main_v16 (ix2 b c) j) = term x0 x1 x3 b c j := by
  rw [val_main_v15_apply, val_main_v11_apply, val_main_v14_apply, val_main_v6_apply, val_main_v5_apply, val_main_v8_apply,
    val_main_v7_apply, val_main_v10_apply, val_main_v9_apply, val_main_v3_apply, val_main_v13_apply, val_main_v12_apply,
    val_main_v4_apply, idx_re, idx_im, idx_cos, idx_sin, phase_eq]
  rfl

/-- THE REFERENCE'S RESULT is the specification's, entry by entry. -/
theorem result_eq (x0 : (⟨S32x2x1048576x2, .f32⟩ : BufTy).Contents (Elt Ideal)) (x1 : (⟨S32x2, .f32⟩ : BufTy).Contents (Elt Ideal))
    (x3 : (⟨S2x1048576, .f32⟩ : BufTy).Contents (Elt Ideal)) :
    val_main_v18 (F := Ideal) x0 x1 x3 = result x0 x1 x3 := by
  funext i
  obtain ⟨b, c, rfl⟩ : ∃ (b : Fin 32) (c : Fin 2), i = ix2 b c := ⟨i 0, i 1, eq_ix2 i⟩
  rw [val_main_v18_apply, val_main_v16_apply, val_main_v17_apply, val_main_cst_1_apply, val_main_cst_0_apply]
  simp only [Ideal.hostDivf_def, Ideal.ofBits_def]
  rw [Consts.div_count, Consts.ofBits_zero, zero_add]
  have e : (∑ j : Fin 1048576, val_main_v15 (F := Ideal) x0 x1 x3 (idx_main_v16 (ix2 b c) j)) = freqSum x0 x1 x3 b c :=
    Finset.sum_congr rfl fun j _ => term_eq x0 x1 x3 b c j
  rw [e]
  rfl

end FreqProj.Reference

end
-- ==== Proof.Payload.lean ====
/-
  What the kernel body's stores hold, entry by entry, over the extended reals.

  One grid point loads a block of 16 rows of `x`, a tile of 2^14 frequencies of `k`, the matching block of `f` and
  the accumulator, and stores back `acc + Σ_j summand`: the phase matrix σ·(x₀·k₀ + x₁·k₁) is built from the two
  columns of `x` and the two rows of `k` broadcast against each other, its cosine and sine are broadcast over the
  channel axis, the two slices of the last axis of `f` are the real and imaginary parts, and the lane reduction
  from zero is the plain sum over the tile's frequencies. So the stored accumulator at (r, c) is the old one plus
  the specification's `freqSum` of the three blocks. The first point of a run stores zeros first; the last point
  stores the accumulator times 2^-20 into the output block.
-/
import proofs.«176217_j80049600463644_1_alg».proof.Proof.Spec
import proofs.«176217_j80049600463644_1_alg».proof.Proof.Consts
import proofs.«176217_j80049600463644_1_alg».proof.Proof.Gen.KernelIdeal.Skeleton
import Idealize.ShloMosaic.Lib.Pipeline.Value
import Idealize.ShloMosaic.PureOps.Ideal.Laws

noncomputable section

namespace FreqProj.Payload

open Idealize.ShloMosaic Idealize.ShloMosaic.ValueIdx Cert.KernelIdeal Cert.KernelIdeal.Gen

/-! ## The body's arithmetic in four named pieces (at any float instance) -/

section Pieces
variable {F : FTy → Type} [FloatOps F]

/-- The phase matrix of a block: σ · (x[:, 0:1] · k[0:1, :] + x[:, 1:2] · k[1:2, :]), the columns and rows broadcast. -/
def phaseVec (x1 : Vec F S16x2 .f32) (x2 : Vec F S2x16384 .f32) : FVec F S16x16384 .f32 :=
  mulf (broadcast S16x16384 (Scalar.ofBits .f32 0x3BC90FDB#32))
    (addf
      (mulf (broadcastTo S16x16384 (extractStridedSlice S16x1 ![0, 0] x1 slices_S16x2_o0_0_S16x1) broadcasts_S16x1_S16x16384)
        (broadcastTo S16x16384 (extractStridedSlice S1x16384 ![0, 0] x2 slices_S2x16384_o0_0_S1x16384) broadcasts_S1x16384_S16x16384))
      (mulf (broadcastTo S16x16384 (extractStridedSlice S16x1 ![0, 1] x1 slices_S16x2_o0_1_S16x1) broadcasts_S16x1_S16x16384)
        (broadcastTo S16x16384 (extractStridedSlice S1x16384 ![1, 0] x2 slices_S2x16384_o1_0_S1x16384) broadcasts_S1x16384_S16x16384)))

/-- The real parts `f[..., 0]` of a block, the unit axis dropped. -/
def reVec (x0 : Vec F S16x2x16384x2 .f32) : FVec F S16x2x16384 .f32 :=
  shapeCast S16x2x16384 (extractStridedSlice S16x2x16384x1 ![0, 0, 0, 0] x0 slices_S16x2x16384x2_o0_0_0_0_S16x2x16384x1)
    shapeCasts_S16x2x16384x1_S16x2x16384

/-- The imaginary parts `f[..., 1]`. -/
def imVec (x0 : Vec F S16x2x16384x2 .f32) : FVec F S16x2x16384 .f32 :=
  shapeCast S16x2x16384 (extractStridedSlice S16x2x16384x1 ![0, 0, 0, 1] x0 slices_S16x2x16384x2_o0_0_0_1_S16x2x16384x1)
    shapeCasts_S16x2x16384x1_S16x2x16384

/-- A (row, frequency) matrix repeated over the channel axis. -/
def overChannels (v : FVec F S16x16384 .f32) : FVec F S16x2x16384 .f32 :=
  broadcastTo S16x2x16384 (shapeCast S16x1x16384 v shapeCasts_S16x16384_S16x1x16384) broadcasts_S16x1x16384_S16x2x16384

/-- The summand block: re · cos(phase) − im · sin(phase). -/
def summandVec (x1 : Vec F S16x2 .f32) (x2 : Vec F S2x16384 .f32) (x0 : Vec F S16x2x16384x2 .f32) : FVec F S16x2x16384 .f32 :=
  subf (mulf (reVec x0) (overChannels (cos (phaseVec x1 x2)))) (mulf (imVec x0) (overChannels (sin (phaseVec x1 x2))))

/-- The accumulating store's value is the old accumulator plus the lane sum of the summand block. -/
theorem pay3_eq (x1 : Vec F S16x2 .f32) (x2 : Vec F S2x16384 .f32) (x0 : Vec F S16x2x16384x2 .f32) (acc : Vec F S16x2 .f32) :
    k0_pay3 x1 x2 x0 acc
      = shapeCast S16x2 (addf acc (multiReduction .add [2] S16x2 (summandVec x1 x2 x0) 0x00000000#32
          reduces_S16x2x16384_S16x2 (.inl rfl) rfl)) shapeCasts_S16x2_S16x2 := rfl

end Pieces

/-! ## The pieces at an entry, over the extended reals -/

/-- A column broadcast along the frequencies reads its row. -/
theorem col_apply (v : FVec Ideal S16x1 .f32) (h : S16x1.Broadcasts S16x16384) (r : Fin 16) (j : Fin 16384) :
    broadcastTo S16x16384 v h (ix2 r j) = v (ix2 r 0) :=
  broadcastTo_apply v h (ix2 r j) (ix2 r 0) fun a => match a with
    | ⟨0, _⟩ => by show r.val = if (16 : ℕ) = 1 then 0 else r.val; rw [if_neg (by decide)]
    | ⟨1, _⟩ => by show (0 : ℕ) = if (1 : ℕ) = 1 then 0 else j.val; rw [if_pos rfl]

/-- A row broadcast down the rows reads its frequency. -/
theorem row_apply (v : FVec Ideal S1x16384 .f32) (h : S1x16384.Broadcasts S16x16384) (r : Fin 16) (j : Fin 16384) :
    broadcastTo S16x16384 v h (ix2 r j) = v (ix2 0 j) :=
  broadcastTo_apply v h (ix2 r j) (ix2 0 j) fun a => match a with
    | ⟨0, _⟩ => by show (0 : ℕ) = if (1 : ℕ) = 1 then 0 else r.val; rw [if_pos rfl]
    | ⟨1, _⟩ => by show j.val = if (16384 : ℕ) = 1 then 0 else j.val; rw [if_neg (by decide)]

/-- Column `q` of the block of `x`. -/
theorem xcol_apply (x1 : FVec Ideal S16x2 .f32) (o : ℕ) (h : S16x2.Slices ![0, o] S16x1) (q : Fin 2) (hq : q.val = o)
    (r : Fin 16) : extractStridedSlice S16x1 ![0, o] x1 h (ix2 r 0) = x1 (ix2 r q) :=
  extractStridedSlice_apply ![0, o] x1 h (ix2 r 0) (ix2 r q) fun a => match a with
    | ⟨0, _⟩ => by show r.val = 0 + r.val; omega
    | ⟨1, _⟩ => by show q.val = o + 0; omega

/-- Row `q` of the tile of `k`. -/
theorem krow_apply (x2 : FVec Ideal S2x16384 .f32) (o : ℕ) (h : S2x16384.Slices ![o, 0] S1x16384) (q : Fin 2) (hq : q.val = o)
    (j : Fin 16384) : extractStridedSlice S1x16384 ![o, 0] x2 h (ix2 0 j) = x2 (ix2 q j) :=
  extractStridedSlice_apply ![o, 0] x2 h (ix2 0 j) (ix2 q j) fun a => match a with
    | ⟨0, _⟩ => by show q.val = o + 0; omega
    | ⟨1, _⟩ => by show j.val = 0 + j.val; omega

/-- The phase matrix at (r, j) is the specification's phase of the two blocks. -/
theorem phaseVec_apply (x1 : FVec Ideal S16x2 .f32) (x2 : FVec Ideal S2x16384 .f32) (r : Fin 16) (j : Fin 16384) :
    phaseVec (F := Ideal) x1 x2 (ix2 r j) = phase x1 x2 r j := by
  unfold phaseVec phase
  rw [mulf_apply, addf_apply, mulf_apply, mulf_apply, broadcast_apply, col_apply, row_apply, col_apply, row_apply,
    xcol_apply x1 0 _ 0 rfl, xcol_apply x1 1 _ 1 rfl, krow_apply x2 0 _ 0 rfl, krow_apply x2 1 _ 1 rfl]
  rfl

/-- Part `e` (0 the real, 1 the imaginary) of the block of `f`, the unit axis dropped, at (r, c, j). -/
theorem part_apply (x0 : FVec Ideal S16x2x16384x2 .f32) (o : ℕ) (h : S16x2x16384x2.Slices ![0, 0, 0, o] S16x2x16384x1)
    (hc : S16x2x16384x1.ShapeCasts S16x2x16384) (e : Fin 2) (he : e.val = o) (r : Fin 16) (c : Fin 2) (j : Fin 16384) :
    shapeCast S16x2x16384 (extractStridedSlice S16x2x16384x1 ![0, 0, 0, o] x0 h) hc (ix3 r c j) = x0 (ix4 r c j e) := by
  refine (shapeCast_apply _ hc (ix3 r c j) (ix4 r c j 0) ?_).trans ?_
  · rewrite [Shape.rowMajor_val_four, Shape.rowMajor_val_three]
    show ((r.val * 2 + c.val) * 16384 + j.val) * 1 + 0 = (r.val * 2 + c.val) * 16384 + j.val
    omega
  · exact extractStridedSlice_apply ![0, 0, 0, o] x0 h (ix4 r c j 0) (ix4 r c j e) fun a => match a with
      | ⟨0, _⟩ => by show r.val = 0 + r.val; omega
      | ⟨1, _⟩ => by show c.val = 0 + c.val; omega
      | ⟨2, _⟩ => by show j.val = 0 + j.val; omega
      | ⟨3, _⟩ => by show e.val = o + 0; omega

/-- A matrix repeated over the channel axis reads (r, j) at every channel. -/
theorem overChannels_apply (v : FVec Ideal S16x16384 .f32) (r : Fin 16) (c : Fin 2) (j : Fin 16384) :
    overChannels (F := Ideal) v (ix3 r c j) = v (ix2 r j) := by
  unfold overChannels
  refine (broadcastTo_apply _ _ (ix3 r c j) (ix3 r 0 j) fun a => match a with
    | ⟨0, _⟩ => by show r.val = if (16 : ℕ) = 1 then 0 else r.val; rw [if_neg (by decide)]
    | ⟨1, _⟩ => by show (0 : ℕ) = if (1 : ℕ) = 1 then 0 else c.val; rw [if_pos rfl]
    | ⟨2, _⟩ => by show j.val = if (16384 : ℕ) = 1 then 0 else j.val; rw [if_neg (by decide)]).trans ?_
  refine shapeCast_apply v _ (ix3 r 0 j) (ix2 r j) ?_
  rewrite [Shape.rowMajor_val_two, Shape.rowMajor_val_three]
  show r.val * 16384 + j.val = (r.val * 1 + 0) * 16384 + j.val
  omega

/-- The summand block at (r, c, j) is the specification's summand of the three blocks. -/
theorem summandVec_apply (x1 : FVec Ideal S16x2 .f32) (x2 : FVec Ideal S2x16384 .f32) (x0 : FVec Ideal S16x2x16384x2 .f32)
    (r : Fin 16) (c : Fin 2) (j : Fin 16384) :
    summandVec (F := Ideal) x1 x2 x0 (ix3 r c j) = term x0 x1 x2 r c j := by
  unfold summandVec term reVec imVec
  rw [subf_apply, mulf_apply, mulf_apply, overChannels_apply, overChannels_apply,
    part_apply x0 0 _ _ 0 rfl, part_apply x0 1 _ _ 1 rfl]
  show x0 (ix4 r c j 0) * Ideal.cos (phaseVec (F := Ideal) x1 x2 (ix2 r j)) - x0 (ix4 r c j 1) * Ideal.sin (phaseVec (F := Ideal) x1 x2 (ix2 r j)) = _
  rw [phaseVec_apply]

/-- The lane reduction from zero at (r, c) is the sum over the tile's frequencies. -/
theorem laneSum_apply (src : FVec Ideal S16x2x16384 .f32) (h : S16x2x16384.Reduces [2] S16x2) (hφ : FKind.Formats FTy.f32)
    (hacc : (0x00000000#32 : BitVec FTy.f32.bits) = FKind.add.neutral .f32 hφ) (r : Fin 16) (c : Fin 2) :
    multiReduction .add [2] S16x2 src 0x00000000#32 h hφ hacc (ix2 r c) = ∑ j : Fin 16384, src (ix3 r c j) := by
  refine (Ideal.multiReduction_add_single src 0x00000000#32 h hφ hacc (ix2 r c)).trans ?_
  show (∑ j : Fin 16384, src (h.lift (ix2 r c) j)) = _
  refine Finset.sum_congr rfl fun j _ => congrArg src (funext fun a => Fin.ext ?_)
  match a with
  | ⟨0, _⟩ => rfl
  | ⟨1, _⟩ => rfl
  | ⟨2, _⟩ => rfl

/-- THE ACCUMULATING STORE at (r, c): the old accumulator plus the sum of the summand over the tile's frequencies. -/
theorem pay3_apply (x1 : FVec Ideal S16x2 .f32) (x2 : FVec Ideal S2x16384 .f32) (x0 : FVec Ideal S16x2x16384x2 .f32)
    (acc : FVec Ideal S16x2 .f32) (r : Fin 16) (c : Fin 2) :
    k0_pay3 (F := Ideal) x1 x2 x0 acc (ix2 r c) = acc (ix2 r c) + freqSum x0 x1 x2 r c := by
  rw [pay3_eq, shapeCast_self, addf_apply]
  refine congrArg (acc (ix2 r c) + ·) ?_
  refine (laneSum_apply (summandVec (F := Ideal) x1 x2 x0) reduces_S16x2x16384_S16x2 (.inl rfl) rfl r c).trans ?_
  exact Finset.sum_congr rfl fun j _ => summandVec_apply x1 x2 x0 r c j

/-- The store that opens a run holds zeros. -/
theorem pay2_apply (i : S16x2.Idx) : k0_pay2 (F := Ideal) i = 0 := by
  unfold k0_pay2
  rw [shapeCast_self]
  exact Consts.ofBits_zero

/-- The store that closes a run holds the accumulator times 2^-20. -/
theorem pay1_apply (v : FVec Ideal S16x2 .f32) (i : S16x2.Idx) :
    k0_pay1 (F := Ideal) v i = v i * Ideal.ofBits .f32 0x35800000#32 := rfl

end FreqProj.Payload

end
-- ==== Proof.Pieces.lean ====
/-
  What one grid point's run of the body leaves in the accumulator and in the output block, as the body's own
  stored values of what the point loaded.

  The body stores the accumulator whole once per point (twice at the first point of a run: zeros, then the
  accumulating store that reads those zeros back), and at the last point of a run stores the output block whole
  from the accumulator it has just written. Every load and every store goes through the whole-buffer rectangle at
  zero offsets, so what the buffers hold afterwards is the last store's value with each load replaced by the
  contents loaded: three readings of the accumulator and one of the output block.
-/
import proofs.«176217_j80049600463644_1_alg».proof.Proof.Gen.KernelIdeal.Frame
import Idealize.ShloMosaic.Lib.Pipeline.Value
import Idealize.ShloMosaic.Lib.Tactic

noncomputable section

namespace FreqProj.Pieces

open Idealize.ShloMosaic Idealize.ShloMosaic.TcCoe Idealize.SL.Sem Cert.KernelIdeal Cert.KernelIdeal.Gen

variable {F : FTy → Type} [FloatOps F]

/-- The zero offsets of a rank-2 rectangle, however spelt. -/
theorem hz2 : (![0, 0] : Fin 2 → Nat) = fun _ => 0 := funext fun a => by fin_cases a <;> rfl
/-- The zero offsets of a rank-4 rectangle. -/
theorem hz4 : (![0, 0, 0, 0] : Fin 4 → Nat) = fun _ => 0 := funext fun a => by fin_cases a <;> rfl

/-- A POINT INSIDE A RUN leaves in the accumulator the accumulating store's value of the three blocks and of what the
    point before left. -/
theorem acc_inside (c : Dev nD) (i : grid0.Coords) (arg2 : Memref sig .tc .vmem S16x2x16384x2 .f32) (harg2 : arg2.IsWhole) (arg3 : Memref sig .tc .vmem S16x2 .f32) (harg3 : arg3.IsWhole) (arg4 : Memref sig .tc .vmem S2x16384 .f32) (harg4 : arg4.IsWhole) (arg5 : Memref sig .tc .vmem S16x2 .f32) (harg5 : arg5.IsWhole) (arg6 : Memref sig .tc .vmem S16x2 .f32) (harg6 : arg6.IsWhole) (hc0 : ¬cond0_0 i) (hc1 : ¬cond0_1 i)
    (x0 : Vec F S16x2x16384x2 .f32) (x1 : Vec F S16x2 .f32) (x2 : Vec F S2x16384 .f32) (xs0 : Vec F S16x2 .f32) :
    sout0_B_0 c i arg2 harg2 arg3 harg3 arg4 harg4 arg5 harg5 arg6 harg6 hc0 hc1 x0 x1 x2 xs0 = k0_pay3 x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S16x2) hz2, View.ld_unit_zero (S := S2x16384) hz2, View.ld_unit_zero (S := S16x2x16384x2) hz4]

/-- THE FIRST POINT OF A RUN stores zeros, reads them back and leaves the accumulating store's value over zeros:
    nothing of what the accumulator held before enters. -/
theorem acc_first (c : Dev nD) (i : grid0.Coords) (arg2 : Memref sig .tc .vmem S16x2x16384x2 .f32) (harg2 : arg2.IsWhole) (arg3 : Memref sig .tc .vmem S16x2 .f32) (harg3 : arg3.IsWhole) (arg4 : Memref sig .tc .vmem S2x16384 .f32) (harg4 : arg4.IsWhole) (arg5 : Memref sig .tc .vmem S16x2 .f32) (harg5 : arg5.IsWhole) (arg6 : Memref sig .tc .vmem S16x2 .f32) (harg6 : arg6.IsWhole) (hc0 : cond0_0 i) (hc1 : ¬cond0_1 i)
    (x0 : Vec F S16x2x16384x2 .f32) (x1 : Vec F S16x2 .f32) (x2 : Vec F S2x16384 .f32) :
    sout0_A_0 c i arg2 harg2 arg3 harg3 arg4 harg4 arg5 harg5 arg6 harg6 hc0 hc1 x0 x1 x2 = k0_pay3 x1 x2 x0 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S16x2) hz2, View.readCov_unit_zero (S := S16x2) _ hz2]
  simp only [View.readAt_eq_ld, harg2.read_unread, harg3.read_unread, harg4.read_unread, harg6.read_unread,
    View.ld_unit_zero (S := S16x2) hz2, View.ld_unit_zero (S := S2x16384) hz2, View.ld_unit_zero (S := S16x2x16384x2) hz4]

/-- THE LAST POINT OF A RUN leaves the same accumulating store's value in the accumulator … -/
theorem acc_last (c : Dev nD) (i : grid0.Coords) (arg2 : Memref sig .tc .vmem S16x2x16384x2 .f32) (harg2 : arg2.IsWhole) (arg3 : Memref sig .tc .vmem S16x2 .f32) (harg3 : arg3.IsWhole) (arg4 : Memref sig .tc .vmem S2x16384 .f32) (harg4 : arg4.IsWhole) (arg5 : Memref sig .tc .vmem S16x2 .f32) (harg5 : arg5.IsWhole) (arg6 : Memref sig .tc .vmem S16x2 .f32) (harg6 : arg6.IsWhole) (hc0 : ¬cond0_0 i) (hc1 : cond0_1 i)
    (x0 : Vec F S16x2x16384x2 .f32) (x1 : Vec F S16x2 .f32) (x2 : Vec F S2x16384 .f32) (xs0 : Vec F S16x2 .f32) :
    sout0_C_0 c i arg2 harg2 arg3 harg3 arg4 harg4 arg5 harg5 arg6 harg6 hc0 hc1 x0 x1 x2 xs0 = k0_pay3 x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S16x2) hz2, View.ld_unit_zero (S := S2x16384) hz2, View.ld_unit_zero (S := S16x2x16384x2) hz4]

/-- … and in the output block the scaling store's value of that accumulator, read back after its store. -/
theorem out_last (c : Dev nD) (i : grid0.Coords) (arg2 : Memref sig .tc .vmem S16x2x16384x2 .f32) (harg2 : arg2.IsWhole) (arg3 : Memref sig .tc .vmem S16x2 .f32) (harg3 : arg3.IsWhole) (arg4 : Memref sig .tc .vmem S2x16384 .f32) (harg4 : arg4.IsWhole) (arg5 : Memref sig .tc .vmem S16x2 .f32) (harg5 : arg5.IsWhole) (arg6 : Memref sig .tc .vmem S16x2 .f32) (harg6 : arg6.IsWhole) (hc0 : ¬cond0_0 i) (hc1 : cond0_1 i)
    (x0 : Vec F S16x2x16384x2 .f32) (x1 : Vec F S16x2 .f32) (x2 : Vec F S2x16384 .f32) (xs0 : Vec F S16x2 .f32) :
    out0_C_3 c i arg2 harg2 arg3 harg3 arg4 harg4 arg5 harg5 arg6 harg6 hc0 hc1 x0 x1 x2 xs0 = k0_pay1 (k0_pay3 x1 x2 x0 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S16x2) _ hz2]
  simp only [View.readAt_eq_ld, harg2.read_unread, harg3.read_unread, harg4.read_unread, harg6.read_unread,
    View.ld_unit_zero (S := S16x2) hz2, View.ld_unit_zero (S := S2x16384) hz2, View.ld_unit_zero (S := S16x2x16384x2) hz4]

end FreqProj.Pieces

end
-- ==== Proof.Blocks.lean ====
/-
  Which entries of the arrays a grid point's blocks are.

  The grid is (2, 64), point `n` at coordinates (n / 64, n % 64). The block of `f` at point `n` is rows
  16·(n/64) … +15, both channels, frequencies 2^14·(n%64) … +2^14−1, both parts; the block of `x` the same rows; the
  tile of `k` the same frequencies; the output block the same rows. The printed index maps are decided once over the
  grid's 128 points, and a block's entry is then index × block size + the coordinate inside the block on each axis.
-/
import proofs.«176217_j80049600463644_1_alg».proof.Proof.Spec
import proofs.«176217_j80049600463644_1_alg».proof.Proof.Gen.KernelIdeal.Frame.Runs

noncomputable section

namespace FreqProj.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- A grid point's position is below 128. -/
theorem lt_N (t : Fin cfg0.N) : t.val < 128 := lt_of_lt_of_eq t.isLt N_0

/-- The printed index maps over the grid: the batch group `t / 64` on the row axes, the tile `t % 64` on the
    frequency axes, zero elsewhere. -/
theorem idx_facts : ∀ t : Fin cfg0.N,
    win0_0.index t (0 : Fin 4) = t.val / 64 ∧ win0_0.index t (1 : Fin 4) = 0
    ∧ win0_0.index t (2 : Fin 4) = t.val % 64 ∧ win0_0.index t (3 : Fin 4) = 0
    ∧ win0_1.index t (0 : Fin 2) = t.val / 64 ∧ win0_1.index t (1 : Fin 2) = 0
    ∧ win0_2.index t (0 : Fin 2) = 0 ∧ win0_2.index t (1 : Fin 2) = t.val % 64
    ∧ win0_3.index t (0 : Fin 2) = t.val / 64 ∧ win0_3.index t (1 : Fin 2) = 0 :=
  (by decide +kernel : ∀ t : Fin grid0.N, _)

/-- The block of `f` at point `t`, entry (r, c, j, e), is `f[16·(t/64) + r, c, 2^14·(t%64) + j, e]`. -/
theorem f_block (c : Dev nD) (t : Fin cfg0.N) (r : Fin 16) (ch : Fin 2) (j : Fin 16384) (e : Fin 2) :
    (iblk m c 0 t : Vec F S16x2x16384x2 .f32) (ix4 r ch j e)
      = m ((c : Thread nD τ).loc main_arg0) (ix4 (rowOf t.val (lt_N t) r) ch (freqOf t.val (lt_N t) j) e) := by
  obtain ⟨e0, e1, e2, e3, -⟩ := idx_facts t
  show V m c main_arg0 (((cfg0.win 0).blk t).view.emb (ix4 r ch j e)) = _
  refine congrArg (m ((c : Thread nD τ).loc main_arg0)) (funext fun a => Fin.ext ?_)
  match a with
  | ⟨0, _⟩ => show win0_0.index t (0 : Fin 4) * 16 + 1 * r.val = 16 * (t.val / 64) + r.val; omega
  | ⟨1, _⟩ => show win0_0.index t (1 : Fin 4) * 2 + 1 * ch.val = ch.val; omega
  | ⟨2, _⟩ => show win0_0.index t (2 : Fin 4) * 16384 + 1 * j.val = 16384 * (t.val % 64) + j.val; omega
  | ⟨3, _⟩ => show win0_0.index t (3 : Fin 4) * 2 + 1 * e.val = e.val; omega

/-- The block of `x` at point `t`, entry (r, q), is `x[16·(t/64) + r, q]`. -/
theorem x_block (c : Dev nD) (t : Fin cfg0.N) (r : Fin 16) (q : Fin 2) :
    (iblk m c 1 t : Vec F S16x2 .f32) (ix2 r q)
      = m ((c : Thread nD τ).loc main_arg1) (ix2 (rowOf t.val (lt_N t) r) q) := by
  obtain ⟨-, -, -, -, e0, e1, -⟩ := idx_facts t
  show V m c main_arg1 (((cfg0.win 1).blk t).view.emb (ix2 r q)) = _
  refine congrArg (m ((c : Thread nD τ).loc main_arg1)) (funext fun a => Fin.ext ?_)
  match a with
  | ⟨0, _⟩ => show win0_1.index t (0 : Fin 2) * 16 + 1 * r.val = 16 * (t.val / 64) + r.val; omega
  | ⟨1, _⟩ => show win0_1.index t (1 : Fin 2) * 2 + 1 * q.val = q.val; omega

/-- The tile of `k` at point `t`, entry (q, j), is `k[q, 2^14·(t%64) + j]`. -/
theorem k_block (c : Dev nD) (t : Fin cfg0.N) (q : Fin 2) (j : Fin 16384) :
    (iblk m c 2 t : Vec F S2x16384 .f32) (ix2 q j)
      = m ((c : Thread nD τ).loc main_arg3) (ix2 q (freqOf t.val (lt_N t) j)) := by
  obtain ⟨-, -, -, -, -, -, e0, e1, -⟩ := idx_facts t
  show V m c main_arg3 (((cfg0.win 2).blk t).view.emb (ix2 q j)) = _
  refine congrArg (m ((c : Thread nD τ).loc main_arg3)) (funext fun a => Fin.ext ?_)
  match a with
  | ⟨0, _⟩ => show win0_2.index t (0 : Fin 2) * 2 + 1 * q.val = q.val; omega
  | ⟨1, _⟩ => show win0_2.index t (1 : Fin 2) * 16384 + 1 * j.val = 16384 * (t.val % 64) + j.val; omega

/-- The output block at point `t` is rows 16·(t/64) … +15 of the result array: contents `X` of the block that agree, entry
    by entry, with an array `G` at those rows are what `G` reads through the point's block. -/
theorem out_block_read (c : Dev nD) (t : Fin cfg0.N) (X : Vec F S16x2 .f32) (G : Buf (Elt F) ((c : Thread nD τ).loc main_v0))
    (h : ∀ (r : Fin 16) (ch : Fin 2), X (ix2 r ch) = G (ix2 (rowOf t.val (lt_N t) r) ch)) :
    (cfg0.win 3).cut (grid0.coords t) X = ((cfg0.win 3).blk t).view.read (Elt F) G := by
  obtain ⟨-, -, -, -, -, -, -, -, e0, e1⟩ := idx_facts t
  funext y
  have hy0 : (y 0).val < 16 := (y 0).isLt
  have hy1 : (y 1).val < 2 := (y 1).isLt
  have ey : (cfg0.win 3).xinj (grid0.coords t) y = ix2 (⟨(y 0).val, hy0⟩ : Fin 16) (⟨(y 1).val, hy1⟩ : Fin 2) :=
    funext fun a => Fin.ext (by match a with | ⟨0, _⟩ => rfl | ⟨1, _⟩ => rfl)
  have eemb : ((cfg0.win 3).blk t).view.emb y
      = ix2 (rowOf t.val (lt_N t) (⟨(y 0).val, hy0⟩ : Fin 16)) (⟨(y 1).val, hy1⟩ : Fin 2) :=
    funext fun a => Fin.ext (by
      match a with
      | ⟨0, _⟩ => show win0_3.index t (0 : Fin 2) * 16 + 1 * (y 0).val = 16 * (t.val / 64) + (y 0).val; omega
      | ⟨1, _⟩ => show win0_3.index t (1 : Fin 2) * 2 + 1 * (y 1).val = (y 1).val; omega)
  show X ((cfg0.win 3).xinj (grid0.coords t) y) = G (((cfg0.win 3).blk t).view.emb y)
  rw [ey, eemb]
  exact h _ _

/-- Every row of the result array lies in the output block of the last point of its batch group: row `i₀` in the block
    of point 64·(i₀/16) + 63. -/
theorem out_block_mem (i : S32x2.Idx) (hlt : 64 * ((i 0).val / 16) + 63 < cfg0.N) :
    i ∈ ((cfg0.win 3).blk ⟨64 * ((i 0).val / 16) + 63, hlt⟩).view.set := by
  have hi0 : (i 0).val < 32 := (i 0).isLt
  have hi1 : (i 1).val < 2 := (i 1).isLt
  obtain ⟨-, -, -, -, -, -, -, -, e0, e1⟩ := idx_facts ⟨64 * ((i 0).val / 16) + 63, hlt⟩
  have e0' : win0_3.index ⟨64 * ((i 0).val / 16) + 63, hlt⟩ (0 : Fin 2) = (64 * ((i 0).val / 16) + 63) / 64 := e0
  show i ∈ ((View.whole main_v0).slice (win0_3.rect ⟨64 * ((i 0).val / 16) + 63, hlt⟩)).set
  rw [View.set_slice_whole, Rect.mem_set_unit]
  intro a
  match a with
  | ⟨0, _⟩ =>
    show win0_3.index ⟨64 * ((i 0).val / 16) + 63, hlt⟩ (0 : Fin 2) * 16 ≤ (i 0).val
      ∧ (i 0).val < win0_3.index ⟨64 * ((i 0).val / 16) + 63, hlt⟩ (0 : Fin 2) * 16 + 16
    omega
  | ⟨1, _⟩ =>
    show win0_3.index ⟨64 * ((i 0).val / 16) + 63, hlt⟩ (1 : Fin 2) * 2 ≤ (i 1).val
      ∧ (i 1).val < win0_3.index ⟨64 * ((i 0).val / 16) + 63, hlt⟩ (1 : Fin 2) * 2 + 2
    omega

/-- SO the summand read from point `t`'s three blocks at (r, c, j) is the summand of the arrays at the block's row and
    the tile's frequency. -/
theorem term_block (m : (ℓ : Loc nD τ sig) → Buf (Elt Ideal) ℓ) (c : Dev nD) (t : Fin cfg0.N) (r : Fin 16) (ch : Fin 2)
    (j : Fin 16384) :
    term (iblk m c 0 t : Vec Ideal S16x2x16384x2 .f32) (iblk m c 1 t : Vec Ideal S16x2 .f32)
        (iblk m c 2 t : Vec Ideal S2x16384 .f32) r ch j
      = term (m ((c : Thread nD τ).loc main_arg0)) (m ((c : Thread nD τ).loc main_arg1)) (m ((c : Thread nD τ).loc main_arg3))
          (rowOf t.val (lt_N t) r) ch (freqOf t.val (lt_N t) j) :=
  term_congr _ _ _ _ _ _ r (rowOf t.val (lt_N t) r) ch j (freqOf t.val (lt_N t) j)
    (fun e => f_block m c t r ch j e) (fun q => x_block m c t r q) (fun q => k_block m c t q j)

end FreqProj.Blocks

end
-- ==== Proof.Accum.lean ====
/-
  The accumulation over a run of 64 grid points, the output array after the launch, and the kernel's run read at
  the specification.

  Within a batch group `q` the accumulator is zeroed at the run's first point 64·q and every point 64·q + s adds the
  sum of the summand over its tile `s` of frequencies, for the 16 rows of the group: after the run's last point it
  holds, at (r, c), the sum over the 64 tiles of the tiles' sums — the sum over all 2^20 frequencies (addition of
  extended reals regroups freely). The last point stores that times 2^-20 into the output block, which is written
  back to rows 16·q … 16·q + 15 of the result; the two write-backs (points 63 and 127) cover the 32 rows.
-/
import proofs.«176217_j80049600463644_1_alg».proof.Proof.Payload
import proofs.«176217_j80049600463644_1_alg».proof.Proof.Pieces
import proofs.«176217_j80049600463644_1_alg».proof.Proof.Blocks
import proofs.«176217_j80049600463644_1_alg».proof.Proof.Gen.KernelIdeal.Value

noncomputable section

namespace FreqProj.Accum

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value
open FreqProj.Blocks (lt_N)

variable (m : (ℓ : Loc nD τ sig) → Buf (Elt Ideal) ℓ) (ρ : Dev nD → PrngReg)

/-- The specification's result of the three argument arrays as the launch finds them on core `c`. -/
abbrev spec (c : Dev nD) : Buf (Elt Ideal) ((c : Thread nD τ).loc main_v0) :=
  result (m ((c : Thread nD τ).loc main_arg0)) (m ((c : Thread nD τ).loc main_arg1)) (m ((c : Thread nD τ).loc main_arg3))

/-! ## One point's addend -/

/-- What point `n` adds to the accumulator at entry `i`: the sum of the summand over the point's tile, read from the
    point's three blocks (zero past the grid, where it is never used). -/
def tileSum (c : Dev nD) (n : ℕ) (i : S16x2.Idx) : EReal :=
  if h : n < cfg0.N then
    freqSum (iblk m c 0 ⟨n, h⟩ : Vec Ideal S16x2x16384x2 .f32) (iblk m c 1 ⟨n, h⟩ : Vec Ideal S16x2 .f32)
      (iblk m c 2 ⟨n, h⟩ : Vec Ideal S2x16384 .f32) (i 0) (i 1)
  else 0

/-- The first point of a run leaves the zero it stored plus its addend, whatever the accumulator held. -/
theorem step_first (c : Dev nD) (n : ℕ) (hb : n < cfg0.N) (h0 : n % 64 = 0) (acc : Vec Ideal S16x2 .f32) (i : S16x2.Idx) :
    scAt0_0 m c n hb acc i = 0 + tileSum m c n i := by
  obtain ⟨r, ch, rfl⟩ : ∃ (r : Fin 16) (ch : Fin 2), i = ix2 r ch := ⟨i 0, i 1, eq_ix2 i⟩
  have h1 : ¬n % 64 = 63 := by omega
  unfold scAt0_0 tileSum
  rw [dif_pos h0, dif_neg h1, dif_pos hb]
  refine (congrFun (Pieces.acc_first (F := Ideal) c (grid0.coords ⟨n, hb⟩) (ms0_0 ⟨n, hb⟩) (hs0_0 ⟨n, hb⟩) (ms0_1 ⟨n, hb⟩)
    (hs0_1 ⟨n, hb⟩) (ms0_2 ⟨n, hb⟩) (hs0_2 ⟨n, hb⟩) (ms0_3 ⟨n, hb⟩) (hs0_3 ⟨n, hb⟩) scM0_0 (Memref.isWhole_whole _)
    ((hcond0_0 ⟨n, hb⟩).mpr h0) (fun h => h1 ((hcond0_1 ⟨n, hb⟩).mp h))
    (iblk m c 0 ⟨n, hb⟩) (iblk m c 1 ⟨n, hb⟩) (iblk m c 2 ⟨n, hb⟩)) (ix2 r ch)).trans ?_
  refine (Payload.pay3_apply (iblk m c 1 ⟨n, hb⟩) (iblk m c 2 ⟨n, hb⟩) (iblk m c 0 ⟨n, hb⟩) (k0_pay2 (F := Ideal)) r ch).trans ?_
  rw [Payload.pay2_apply]

/-- Every other point of a run adds its addend to what the point before left. -/
theorem step_next (c : Dev nD) (n : ℕ) (hb : n < cfg0.N) (h0 : ¬n % 64 = 0) (acc : Vec Ideal S16x2 .f32) (i : S16x2.Idx) :
    scAt0_0 m c n hb acc i = acc i + tileSum m c n i := by
  obtain ⟨r, ch, rfl⟩ : ∃ (r : Fin 16) (ch : Fin 2), i = ix2 r ch := ⟨i 0, i 1, eq_ix2 i⟩
  unfold scAt0_0 tileSum
  rw [dif_neg h0, dif_pos hb]
  by_cases h1 : n % 64 = 63
  · rw [dif_pos h1]
    refine (congrFun (Pieces.acc_last (F := Ideal) c (grid0.coords ⟨n, hb⟩) (ms0_0 ⟨n, hb⟩) (hs0_0 ⟨n, hb⟩) (ms0_1 ⟨n, hb⟩)
      (hs0_1 ⟨n, hb⟩) (ms0_2 ⟨n, hb⟩) (hs0_2 ⟨n, hb⟩) (ms0_3 ⟨n, hb⟩) (hs0_3 ⟨n, hb⟩) scM0_0 (Memref.isWhole_whole _)
      (fun h => h0 ((hcond0_0 ⟨n, hb⟩).mp h)) ((hcond0_1 ⟨n, hb⟩).mpr h1)
      (iblk m c 0 ⟨n, hb⟩) (iblk m c 1 ⟨n, hb⟩) (iblk m c 2 ⟨n, hb⟩) acc) (ix2 r ch)).trans ?_
    exact Payload.pay3_apply (iblk m c 1 ⟨n, hb⟩) (iblk m c 2 ⟨n, hb⟩) (iblk m c 0 ⟨n, hb⟩) acc r ch
  · rw [dif_neg h1]
    refine (congrFun (Pieces.acc_inside (F := Ideal) c (grid0.coords ⟨n, hb⟩) (ms0_0 ⟨n, hb⟩) (hs0_0 ⟨n, hb⟩) (ms0_1 ⟨n, hb⟩)
      (hs0_1 ⟨n, hb⟩) (ms0_2 ⟨n, hb⟩) (hs0_2 ⟨n, hb⟩) (ms0_3 ⟨n, hb⟩) (hs0_3 ⟨n, hb⟩) scM0_0 (Memref.isWhole_whole _)
      (fun h => h0 ((hcond0_0 ⟨n, hb⟩).mp h)) (fun h => h1 ((hcond0_1 ⟨n, hb⟩).mp h))
      (iblk m c 0 ⟨n, hb⟩) (iblk m c 1 ⟨n, hb⟩) (iblk m c 2 ⟨n, hb⟩) acc) (ix2 r ch)).trans ?_
    exact Payload.pay3_apply (iblk m c 1 ⟨n, hb⟩) (iblk m c 2 ⟨n, hb⟩) (iblk m c 0 ⟨n, hb⟩) acc r ch

/-! ## The accumulator after a point: the sum of the run's addends so far -/

/-- After point `t` the accumulator holds the addends of the points of `t`'s run up to `t`. -/
theorem acc_after (c : Dev nD) (t : Fin cfg0.N) (i : S16x2.Idx) :
    (outsAt0 m c t.val t.isLt).2 i
      = 0 + ∑ s ∈ Finset.range (t.val % 64 + 1), tileSum m c (64 * (t.val / 64) + s) i := by
  rw [soutsAt0_0_eq m c t]
  exact Pipeline.accAt_add_apply (ι := S16x2.Idx) (β := EReal)
    (fun n h => scAt0_0 m c n h (VS0_0.read (Elt Ideal) VS0_0.junk)) (scAt0_0 m c) (fun _ => 0) (tileSum m c)
    (64 * (t.val / 64)) 63
    (fun h i => step_first m c _ h (Nat.mul_mod_right 64 _) _ i)
    (fun n h acc i hlt hle => step_next m c n h (by omega) acc i)
    (t.val % 64) (by omega) _ i

/-! ## The addends are the specification's tiles -/

/-- Point `n`'s addend at (r, c) is the sum of the arrays' summand over the point's rows and tile. -/
theorem tileSum_eq (c : Dev nD) (n : ℕ) (hn : n < 128) (r : Fin 16) (ch : Fin 2) :
    tileSum m c n (ix2 r ch)
      = ∑ j : Fin 16384, term (m ((c : Thread nD τ).loc main_arg0)) (m ((c : Thread nD τ).loc main_arg1))
          (m ((c : Thread nD τ).loc main_arg3)) (rowOf n hn r) ch (freqOf n hn j) := by
  have hb : n < cfg0.N := lt_of_lt_of_eq hn N_0.symm
  unfold tileSum
  rw [dif_pos hb]
  exact Finset.sum_congr rfl fun j _ => Blocks.term_block m c ⟨n, hb⟩ r ch j

/-- The 64 addends of batch group `q`'s run add up to the sum over every frequency, at the group's row. -/
theorem run_total (c : Dev nD) (q : ℕ) (hq : q < 2) (r : Fin 16) (ch : Fin 2) :
    ∑ s ∈ Finset.range 64, tileSum m c (64 * q + s) (ix2 r ch)
      = freqSum (m ((c : Thread nD τ).loc main_arg0)) (m ((c : Thread nD τ).loc main_arg1))
          (m ((c : Thread nD τ).loc main_arg3)) (rowOf (64 * q) (by omega) r) ch := by
  unfold freqSum
  rw [← sum_freq_tiles]
  refine Finset.sum_congr rfl fun s hs => ?_
  have hs' : s < 64 := Finset.mem_range.mp hs
  rw [tileSum_eq m c (64 * q + s) (by omega) r ch]
  refine Finset.sum_congr rfl fun j _ => ?_
  have hj := j.isLt
  have hr := r.isLt
  rw [dif_pos (by omega)]
  have eb : rowOf (64 * q + s) (by omega) r = rowOf (64 * q) (by omega) r :=
    Fin.ext (by show 16 * ((64 * q + s) / 64) + r.val = 16 * (64 * q / 64) + r.val; omega)
  have ej : freqOf (64 * q + s) (by omega) j = ⟨16384 * s + j.val, by omega⟩ :=
    Fin.ext (by show 16384 * ((64 * q + s) % 64) + j.val = 16384 * s + j.val; omega)
  rw [eb, ej]

/-! ## The output block at a run's last point, and the array -/

/-- At a run's last point the output block holds the accumulator just stored, times 2^-20. -/
theorem out_scaled (c : Dev nD) (t : Fin cfg0.N) (h1 : t.val % 64 = 63) :
    (outsAt0 m c t.val t.isLt).1 = k0_pay1 (F := Ideal) (outsAt0 m c t.val t.isLt).2 := by
  have h0 : ¬t.val % 64 = 0 := by omega
  have e := (outsAt0_C m c t h0 h1).trans (congrArg₂ Prod.mk
    (Pieces.out_last (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2)
    (Pieces.acc_last (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2))
  exact (congrArg Prod.fst e).trans (congrArg (k0_pay1 (F := Ideal)) (congrArg Prod.snd e)).symm

/-- So at a run's last point the output block, at (r, c), is the specification's result at the block's row. -/
theorem out_block (c : Dev nD) (t : Fin cfg0.N) (h1 : t.val % 64 = 63) (r : Fin 16) (ch : Fin 2) :
    (outsAt0 m c t.val t.isLt).1 (ix2 r ch) = spec m c (ix2 (rowOf t.val (lt_N t) r) ch) := by
  have ht := lt_N t
  rw [out_scaled m c t h1]
  refine (Payload.pay1_apply _ _).trans ?_
  rw [acc_after m c t (ix2 r ch), h1, zero_add, run_total m c (t.val / 64) (by omega) r ch]
  have eb : rowOf (64 * (t.val / 64)) (by omega) r = rowOf t.val ht r :=
    Fin.ext (by show 16 * (64 * (t.val / 64) / 64) + r.val = 16 * (t.val / 64) + r.val; omega)
  rw [eb]
  rfl

/-- WHAT A WRITE-BACK WRITES: at the points that write the output block back, the specification's result read through
    the point's block of the result array. -/
theorem flushed_eq (c : Dev nD) (t : Fin cfg0.N) (hf : (cfg0.win 3).flush t = true) :
    (dats m 0 c).flushed 3 t = ((cfg0.win 3).blk t).view.read (Elt Ideal) (spec m c) := by
  have h1 : t.val % 64 = 63 := (flush0_3 t).mp hf
  rw [flushed3]
  exact Blocks.out_block_read c t (outsAt0 m c t.val t.isLt).1 (spec m c) (fun r ch => out_block m c t h1 r ch)

/-- The two write-backs cover the result array: row `i₀` lies in the block written at the last point of batch group
    `i₀ / 16`. -/
theorem cover (i : S32x2.Idx) :
    ∃ t : Fin cfg0.N, (cfg0.win 3).flush t = true ∧ i ∈ ((cfg0.win 3).blk t).view.set := by
  have hi0 : (i 0).val < 32 := (i 0).isLt
  have hN : cfg0.N = 128 := N_0
  have hlt : 64 * ((i 0).val / 16) + 63 < cfg0.N := by rw [hN]; omega
  exact ⟨⟨64 * ((i 0).val / 16) + 63, hlt⟩,
    (flush0_3 _).mpr (by show (64 * ((i 0).val / 16) + 63) % 64 = 63; omega), Blocks.out_block_mem i hlt⟩

/-- THE RESULT ARRAY after the launch is the specification's result of the argument arrays. -/
theorem final (c : Dev nD) : (dats m 0 c).arrAt 3 cfg0.N = spec m c :=
  (dats m 0 c).arrAt_eq_of_cover 3 (spec m c) (fun t hf => flushed_eq m c t hf) cover

/-- THE KERNEL'S RUN: every weakly fair execution terminates with the result array at the specification's result and
    the four arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end FreqProj.Accum

end
-- ==== Proof.lean ====
/-
  The kernel and its reference compute one function over the extended reals.

  For f : [32, 2, 2^20, 2] (interleaved real and imaginary parts), x : [32, 2] and k : [2, 2^20], both programs return,
  at (b, c), the mean over the 2^20 frequencies j of
      f[b, c, j, 0] · cos φ(b, j) − f[b, c, j, 1] · sin φ(b, j),    φ(b, j) = σ · (x[b, 0]·k[0, j] + x[b, 1]·k[1, j]),
  the real part of f · exp(iφ), with σ one float word in both. (The fourth argument t is read by neither.)

  The reference forms φ by a matrix product contracted over two coordinates, sums over all frequencies at once and
  divides by 2^20. The kernel walks a (2, 64) grid: a batch group of 16 rows times a tile of 2^14 frequencies per
  point; it builds φ from broadcast columns and rows, adds the tile's sum into an accumulator that is zeroed at the
  first tile, and at the last tile stores the accumulator times 2^-20. The two meet because

    • a contraction over two coordinates is the two-term sum;
    • a sum over 2^20 frequencies is the sum of the 64 tiles' sums, in any grouping: addition of extended reals is
      commutative and associative at the infinities too, so no finiteness of the inputs is used;
    • 2^-20 is a power of two, so the kernel's folded scale is the exact reciprocal of the reference's divisor, and
      a quotient by a nonzero real is the product with its reciprocal on every extended real.

  Modules: Spec (the function and the tiling law), Consts (the three float words), Reference (the reference is the
  function), Payload (the body's stores at an entry), Pieces (what a point's run leaves, as those stores), Blocks
  (which entries a point's blocks are), Accum (the fold over a run, the write-backs, the kernel's run). The word-level
  kernel and its idealization differ by no rewrite, so `preserves` is trivial, and the three frames are the
  generated ones (the reference's frame is its run with the result dropped).
-/
import proofs.«176217_j80049600463644_1_alg».proof.Defs
import proofs.«176217_j80049600463644_1_alg».proof.Proof.Gen.Kernel
import proofs.«176217_j80049600463644_1_alg».proof.Proof.Gen.Kernel.Skeleton
import proofs.«176217_j80049600463644_1_alg».proof.Proof.Gen.Kernel.Launch
import proofs.«176217_j80049600463644_1_alg».proof.Proof.Gen.Kernel.Points
import proofs.«176217_j80049600463644_1_alg».proof.Proof.Gen.Kernel.Frame
import proofs.«176217_j80049600463644_1_alg».proof.Proof.Gen.KernelIdeal
import proofs.«176217_j80049600463644_1_alg».proof.Proof.Gen.KernelIdeal.Skeleton
import proofs.«176217_j80049600463644_1_alg».proof.Proof.Gen.KernelIdeal.Launch
import proofs.«176217_j80049600463644_1_alg».proof.Proof.Gen.KernelIdeal.Points
import proofs.«176217_j80049600463644_1_alg».proof.Proof.Gen.KernelIdeal.Frame
import proofs.«176217_j80049600463644_1_alg».proof.Proof.Gen.KernelIdeal.Value
import proofs.«176217_j80049600463644_1_alg».proof.Proof.Gen.ReferenceIdeal
import proofs.«176217_j80049600463644_1_alg».proof.Proof.Gen.ReferenceIdeal.Run
import proofs.«176217_j80049600463644_1_alg».proof.Proof.Gen.ReferenceIdeal.Read
import proofs.«176217_j80049600463644_1_alg».proof.Proof.Gen.Pre_finite_inputs
import proofs.«176217_j80049600463644_1_alg».proof.Proof.Reference
import proofs.«176217_j80049600463644_1_alg».proof.Proof.Accum
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification's result of those arguments:
    the kernel by its accumulation over the grid, the reference entry by entry. -/
theorem algebraic : Cert.algebraic_KernelIdeal_ReferenceIdeal := by
  intro m ρ m' ρ' _ hagree
  refine ⟨fun c => FreqProj.Accum.spec m c, FreqProj.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, FreqProj.Reference.result_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
